-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x32000 : Shape := ⟨3, ![2, 2048, 32000]⟩
abbrev S2x2048 : Shape := ⟨2, ![2, 2048]⟩
abbrev S_ : Shape := ⟨0, ![]⟩

class Facts : Prop where
  bcast_S_S2x2048x32000 : S_.BroadcastsInDim S2x2048x32000 (![] : Fin 0 → Fin S2x2048x32000.rank)
  reducesTo_S2x2048x32000_S_d0_1_2 : S2x2048x32000.ReducesTo [0, 1, 2] S_
  h_S_ : 0 < S_.numel

variable [Facts]

def fn {F : FTy → Type} [FloatOps F] (main_arg0 : FVec F S2x2048x32000 .f32) (main_arg1 : FVec F S2x2048x32000 .f32) (main_arg2 : IVec S2x2048 32) : IVec S_ 1 :=
  let main_v0 : FVec F S2x2048x32000 .f32 := Host.absf main_arg0
  let main_cst : FVec F S_ .f32 := constant S_ .f32 0x7F800000#32
  let main_v1 : FVec F S2x2048x32000 .f32 := broadcastInDim S2x2048x32000 ![] bcast_S_S2x2048x32000 main_cst
  let main_v2 : IVec S2x2048x32000 1 := cmpf .olt main_v0 main_v1
  let main_c : IVec S_ 1 := constantI S_ 1 1#1
  let main_v3 : IVec S_ 1 := (fun x v => Host.reduce IntOp.andi x v reducesTo_S2x2048x32000_S_d0_1_2 h_S_) main_v2 main_c
  let main_v4 : FVec F S2x2048x32000 .f32 := Host.absf main_arg1
  let main_cst_0 : FVec F S_ .f32 := constant S_ .f32 0x7F800000#32
  let main_v5 : FVec F S2x2048x32000 .f32 := broadcastInDim S2x2048x32000 ![] bcast_S_S2x2048x32000 main_cst_0
  let main_v6 : IVec S2x2048x32000 1 := cmpf .olt main_v4 main_v5
  let main_c_1 : IVec S_ 1 := constantI S_ 1 1#1
  let main_v7 : IVec S_ 1 := (fun x v => Host.reduce IntOp.andi x v reducesTo_S2x2048x32000_S_d0_1_2 h_S_) main_v6 main_c_1
  let main_v8 : IVec S_ 1 := andi main_v3 main_v7
  main_v8
-- ==== Kernel.lean ====
abbrev S2x2048x32000 : Shape := ⟨3, ![2, 2048, 32000]⟩
abbrev S2x2048 : Shape := ⟨2, ![2, 2048]⟩
abbrev S4096x32000 : Shape := ⟨2, ![4096, 32000]⟩
abbrev S4096x1 : Shape := ⟨2, ![4096, 1]⟩
abbrev S64x32000 : Shape := ⟨2, ![64, 32000]⟩
abbrev S64x1 : Shape := ⟨2, ![64, 1]⟩
abbrev S64x3200 : Shape := ⟨2, ![64, 3200]⟩
abbrev S64 : Shape := ⟨1, ![64]⟩
abbrev S4096 : Shape := ⟨1, ![4096]⟩
abbrev S_ : Shape := ⟨0, ![]⟩

abbrev nBuf : Space → Nat
  | .hbm => 19
  | .vmem => 6
  | .smem => 0
  | _ => 0

abbrev bufTy : (tb : Table) → Fin (tcTables nBuf tb) → BufTy
  | .hbm, ⟨0, _⟩ => ⟨S2x2048x32000, .f32⟩
  | .hbm, ⟨1, _⟩ => ⟨S2x2048x32000, .f32⟩
  | .hbm, ⟨2, _⟩ => ⟨S2x2048, .i32⟩
  | .hbm, ⟨3, _⟩ => ⟨S4096x32000, .f32⟩
  | .hbm, ⟨4, _⟩ => ⟨S4096x32000, .f32⟩
  | .hbm, ⟨5, _⟩ => ⟨S4096x1, .f32⟩
  | .hbm, ⟨6, _⟩ => ⟨S4096, .f32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x32000, .f32⟩
  | .local _ .vmem, ⟨3, _⟩ => ⟨S64x32000, .f32⟩
  | .local _ .vmem, ⟨4, _⟩ => ⟨S64x1, .f32⟩
  | .local _ .vmem, ⟨5, _⟩ => ⟨S64x1, .f32⟩
  | _, _ => ⟨S2x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x2048x32000_S4096x32000 : S2x2048x32000.ShapeCasts S4096x32000
  inb_S64x32000_S64x3200_0_0 : ∀ a, (![0, 0] : Fin 2 → Nat) a + S64x3200.size a ≤ S64x32000.size a
  h_S64x3200 : 0 < S64x3200.numel
  shapeCasts_S64x3200_S64x3200 : S64x3200.ShapeCasts S64x3200
  reduces_S64x3200_S64 : S64x3200.Reduces [1] S64
  shapeCasts_S64_S64x1 : S64.ShapeCasts S64x1
  inb_S64x32000_S64x3200_0_3200 : ∀ a, (![0, 3200] : Fin 2 → Nat) a + S64x3200.size a ≤ S64x32000.size a
  inb_S64x32000_S64x3200_0_6400 : ∀ a, (![0, 6400] : Fin 2 → Nat) a + S64x3200.size a ≤ S64x32000.size a
  inb_S64x32000_S64x3200_0_9600 : ∀ a, (![0, 9600] : Fin 2 → Nat) a + S64x3200.size a ≤ S64x32000.size a
  inb_S64x32000_S64x3200_0_12800 : ∀ a, (![0, 12800] : Fin 2 → Nat) a + S64x3200.size a ≤ S64x32000.size a
  inb_S64x32000_S64x3200_0_16000 : ∀ a, (![0, 16000] : Fin 2 → Nat) a + S64x3200.size a ≤ S64x32000.size a
  inb_S64x32000_S64x3200_0_19200 : ∀ a, (![0, 19200] : Fin 2 → Nat) a + S64x3200.size a ≤ S64x32000.size a
  inb_S64x32000_S64x3200_0_22400 : ∀ a, (![0, 22400] : Fin 2 → Nat) a + S64x3200.size a ≤ S64x32000.size a
  inb_S64x32000_S64x3200_0_25600 : ∀ a, (![0, 25600] : Fin 2 → Nat) a + S64x3200.size a ≤ S64x32000.size a
  inb_S64x32000_S64x3200_0_28800 : ∀ a, (![0, 28800] : Fin 2 → Nat) a + S64x3200.size a ≤ S64x32000.size a
  broadcasts_S64x1_S64x3200 : S64x1.Broadcasts S64x3200
  inb_S64x1_S64x1_0_0 : ∀ a, (![0, 0] : Fin 2 → Nat) a + S64x1.size a ≤ S64x1.size a
  h_S64x1 : 0 < S64x1.numel
  shapeCasts_S4096x1_S4096 : S4096x1.ShapeCasts S4096
  shapeCasts_S2x2048_S4096 : S2x2048.ShapeCasts S4096
  bcast_S_S4096 : S_.BroadcastsInDim S4096 (![] : Fin 0 → Fin S4096.rank)
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S4096x32000.size a
  hwx0_0 : ∀ i : grid0.Coords, EltTy.bits .f32 = 32 ∨ (Rect.block (s := S4096x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32000.size a ≤ S4096x32000.size a
  hwx0_1 : ∀ i : grid0.Coords, EltTy.bits .f32 = 32 ∨ (Rect.block (s := S4096x32000) S64x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)

variable [Facts₀]

abbrev win0_0 : Pipeline.Window sig grid0 :=
  Pipeline.Window.ofSpec (Memref.whole main_v0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x32000 : Shape := ⟨3, ![2, 2048, 32000]⟩
abbrev S2x2048 : Shape := ⟨2, ![2, 2048]⟩
abbrev S_ : Shape := ⟨0, ![]⟩
abbrev S2x2048x1 : Shape := ⟨3, ![2, 2048, 1]⟩
abbrev S4096 : Shape := ⟨1, ![4096]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x32000, .f32⟩
  | .hbm, ⟨1, _⟩ => ⟨S2x2048x32000, .f32⟩
  | .hbm, ⟨2, _⟩ => ⟨S2x2048, .i32⟩
  | .hbm, ⟨3, _⟩ => ⟨S_, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S2x2048x1, .f32⟩
  | .hbm, ⟨9, _⟩ => ⟨S2x2048x32000, .f32⟩
  | .hbm, ⟨10, _⟩ => ⟨S2x2048x32000, .f32⟩
  | .hbm, ⟨11, _⟩ => ⟨S2x2048x32000, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S2x2048x32000, .f32⟩
  | .hbm, ⟨16, _⟩ => ⟨S2x2048x32000, .f32⟩
  | .hbm, ⟨17, _⟩ => ⟨S_, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S2x2048x1, .f32⟩
  | .hbm, ⟨23, _⟩ => ⟨S2x2048x32000, .f32⟩
  | .hbm, ⟨24, _⟩ => ⟨S2x2048x32000, .f32⟩
  | .hbm, ⟨25, _⟩ => ⟨S2x2048x32000, .f32⟩
  | .hbm, ⟨26, _⟩ => ⟨S_, .f32⟩
  | .hbm, ⟨27, _⟩ => ⟨S2x2048, .f32⟩
  | .hbm, ⟨28, _⟩ => ⟨S2x2048x1, .f32⟩
  | .hbm, ⟨29, _⟩ => ⟨S2x2048x1, .f32⟩
  | .hbm, ⟨30, _⟩ => ⟨S2x2048x32000, .f32⟩
  | .hbm, ⟨31, _⟩ => ⟨S2x2048x32000, .f32⟩
  | .hbm, ⟨32, _⟩ => ⟨S2x2048x32000, .f32⟩
  | .hbm, ⟨33, _⟩ => ⟨S_, .f32⟩
  | .hbm, ⟨34, _⟩ => ⟨S2x2048x32000, .f32⟩
  | .hbm, ⟨35, _⟩ => ⟨S2x2048x32000, .i1⟩
  | .hbm, ⟨36, _⟩ => ⟨S2x2048x32000, .f32⟩
  | .hbm, ⟨37, _⟩ => ⟨S_, .f32⟩
  | .hbm, ⟨38, _⟩ => ⟨S_, .f32⟩
  | .hbm, ⟨39, _⟩ => ⟨S2x2048x32000, .f32⟩
  | .hbm, ⟨40, _⟩ => ⟨S2x2048x32000, .f32⟩
  | .hbm, ⟨41, _⟩ => ⟨S_, .f32⟩
  | .hbm, ⟨42, _⟩ => ⟨S2x2048, .f32⟩
  | .hbm, ⟨43, _⟩ => ⟨S4096, .f32⟩
  | .hbm, ⟨44, _⟩ => ⟨S_, .i32⟩
  | .hbm, ⟨45, _⟩ => ⟨S2x2048, .i32⟩
  | .hbm, ⟨46, _⟩ => ⟨S2x2048, .i1⟩
  | .hbm, ⟨47, _⟩ => ⟨S2x2048, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S2x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v11 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call2_v0 : Ref sig .tc := ⟨.hbm, 38, rfl⟩
abbrev main_call2_v1 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_v23 : Ref sig .tc := ⟨.hbm, 52, rfl⟩
abbrev main_cst_5 : Ref sig .tc := ⟨.hbm, 53, rfl⟩
abbrev main_v24 : Ref sig .tc := ⟨.hbm, 54, rfl⟩
abbrev main_v25 : Ref sig .tc := ⟨.hbm, 55, rfl⟩

abbrev nD : Nat := 1
abbrev τ : Topo := Topo.v7x

variable {F : FTy → Type} [FloatOps F]

class Facts₀ : Prop where
  reducesTo_S2x2048x32000_S2x2048_d2 : S2x2048x32000.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x32000_0_1_2 : S2x2048x1.BroadcastsInDim S2x2048x32000 (![0, 1, 2] : Fin 3 → Fin S2x2048x32000.rank)
  bcast_S_S2x2048x32000 : S_.BroadcastsInDim S2x2048x32000 (![] : Fin 0 → Fin S2x2048x32000.rank)
  shapeCasts_S2x2048_S4096 : S2x2048.ShapeCasts S4096
  reducesTo_S4096_S_d0 : S4096.ReducesTo [0] S_

variable [Facts₀]

class Facts : Prop extends Facts₀ where

variable [Facts]
-- ==== Proof.RefRun.lean ====
/-
  The reference program as a straight line of 53 host operations, and its run read back.

  The reference computes, from the student's logits, the teacher's logits and the labels: the teacher's softmax (a
  row maximum, the exponentials of the differences, their row sum, the quotient), the student's log-softmax (the
  same maximum and sum, a logarithm, two subtractions), the product of the two with every position of an infinite
  logit replaced by zero, its row sums flattened to one vector of 4096 rows, the mask of the labels different from
  -100 flattened likewise, and minus the masked sum of the rows divided by the number of unmasked rows. Every weakly
  fair execution of the program ends with the result buffer at that composed term of the arguments, and the
  arguments unchanged.
-/
import proofs.«116429_j867583393854_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The reference's 53 operations, in order; the operations of a called function (the log-softmax, the test for an
    infinity, the select) stand in the call's place, on the call's own buffers. -/
abbrev ops : List (HloOp τ sig (Elt F)) :=
  [ nullary main_cst (constant S_ .f32 0xFF800000#32),
    binary main_arg1 main_cst main_v0 ((fun x v => Host.reduce FloatOps.maximumf x v reducesTo_S2x2048x32000_S2x2048_d2 h_S_) : (⟨S2x2048x32000, .f32⟩ : BufTy).Contents (Elt F) → (⟨S_, .f32⟩ : BufTy).Contents (Elt F) → (⟨S2x2048, .f32⟩ : BufTy).Contents (Elt F)),
    nullary main_cst_0 (constant S_ .f32 0xFF800000#32),
    unary main_cst_0 main_v1 (broadcastInDim S2x2048 ![] bcast_S_S2x2048 : (⟨S_, .f32⟩ : BufTy).Contents (Elt F) → (⟨S2x2048, .f32⟩ : BufTy).Contents (Elt F)),
    binary main_v1 main_v0 main_v2 (maximumf : (⟨S2x2048, .f32⟩ : BufTy).Contents (Elt F) → (⟨S2x2048, .f32⟩ : BufTy).Contents (Elt F) → (⟨S2x2048, .f32⟩ : BufTy).Contents (Elt F)),
    unary main_v2 main_v3 (broadcastInDim S2x2048x1 ![0, 1] bcast_S2x2048_S2x2048x1_0_1 : (⟨S2x2048, .f32⟩ : BufTy).Contents (Elt F) → (⟨S2x2048x1, .f32⟩ : BufTy).Contents (Elt F)),
    unary main_v3 main_v4 (broadcastInDim S2x2048x32000 ![0, 1, 2] bcast_S2x2048x1_S2x2048x32000_0_1_2 : (⟨S2x2048x1, .f32⟩ : BufTy).Contents (Elt F) → (⟨S2x2048x32000, .f32⟩ : BufTy).Contents (Elt F)),
    binary main_arg1 main_v4 main_v5 (subf : (⟨S2x2048x32000, .f32⟩ : BufTy).Contents (Elt F) → (⟨S2x2048x32000, .f32⟩ : BufTy).Contents (Elt F) → (⟨S2x2048x32000, .f32⟩ : BufTy).Contents (Elt F)),
    unary main_v5 main_v6 (Host.exp : (⟨S2x2048x32000, .f32⟩ : BufTy).Contents (Elt F) → (⟨S2x2048x32000, .f32⟩ : BufTy).Contents (Elt F)),
    nullary main_cst_1 (constant S_ .f32 0x00000000#32),
    binary main_v6 main_cst_1 main_v7 ((fun x v => Host.reduceAdd x v reducesTo_S2x2048x32000_S2x2048_d2 h_S_) : (⟨S2x2048x32000, .f32⟩ : BufTy).Contents (Elt F) → (⟨S_, .f32⟩ : BufTy).Contents (Elt F) → (⟨S2x2048, .f32⟩ : BufTy).Contents (Elt F)),
    unary main_v7 main_v8 (broadcastInDim S2x2048x1 ![0, 1] bcast_S2x2048_S2x2048x1_0_1 : (⟨S2x2048, .f32⟩ : BufTy).Contents (Elt F) → (⟨S2x2048x1, .f32⟩ : BufTy).Contents (Elt F)),
    unary main_v8 main_v9 (broadcastInDim S2x2048x32000 ![0, 1, 2] bcast_S2x2048x1_S2x2048x32000_0_1_2 : (⟨S2x2048x1, .f32⟩ : BufTy).Contents (Elt F) → (⟨S2x2048x32000, .f32⟩ : BufTy).Contents (Elt F)),
    binary main_v6 main_v9 main_v10 (Host.divf : (⟨S2x2048x32000, .f32⟩ : BufTy).Contents (Elt F) → (⟨S2x2048x32000, .f32⟩ : BufTy).Contents (Elt F) → (⟨S2x2048x32000, .f32⟩ : BufTy).Contents (Elt F)),
    nullary main_call0_cst (constant S_ .f32 0xFF800000#32 : (⟨S_, .f32⟩ : BufTy).Contents (Elt F)),
    binary main_arg0 main_call0_cst main_call0_v0 (fun x v => Host.reduce FloatOps.maximumf x v reducesTo_S2x2048x32000_S2x2048_d2 h_S_ : (⟨S2x2048x32000, .f32⟩ : BufTy).Contents (Elt F) → (⟨S_, .f32⟩ : BufTy).Contents (Elt F) → (⟨S2x2048, .f32⟩ : BufTy).Contents (Elt F)),
    nullary main_call0_cst_0 (constant S_ .f32 0xFF800000#32 : (⟨S_, .f32⟩ : BufTy).Contents (Elt F)),
    unary main_call0_cst_0 main_call0_v1 (broadcastInDim S2x2048 ![] bcast_S_S2x2048 : (⟨S_, .f32⟩ : BufTy).Contents (Elt F) → (⟨S2x2048, .f32⟩ : BufTy).Contents (Elt F)),
    binary main_call0_v1 main_call0_v0 main_call0_v2 (maximumf : (⟨S2x2048, .f32⟩ : BufTy).Contents (Elt F) → (⟨S2x2048, .f32⟩ : BufTy).Contents (Elt F) → (⟨S2x2048, .f32⟩ : BufTy).Contents (Elt F)),
    unary main_call0_v2 main_call0_v3 (broadcastInDim S2x2048x1 ![0, 1] bcast_S2x2048_S2x2048x1_0_1 : (⟨S2x2048, .f32⟩ : BufTy).Contents (Elt F) → (⟨S2x2048x1, .f32⟩ : BufTy).Contents (Elt F)),
    unary main_call0_v3 main_call0_v4 (broadcastInDim S2x2048x32000 ![0, 1, 2] bcast_S2x2048x1_S2x2048x32000_0_1_2 : (⟨S2x2048x1, .f32⟩ : BufTy).Contents (Elt F) → (⟨S2x2048x32000, .f32⟩ : BufTy).Contents (Elt F)),
    binary main_arg0 main_call0_v4 main_call0_v5 (subf : (⟨S2x2048x32000, .f32⟩ : BufTy).Contents (Elt F) → (⟨S2x2048x32000, .f32⟩ : BufTy).Contents (Elt F) → (⟨S2x2048x32000, .f32⟩ : BufTy).Contents (Elt F)),
    unary main_call0_v5 main_call0_v6 (Host.exp : (⟨S2x2048x32000, .f32⟩ : BufTy).Contents (Elt F) → (⟨S2x2048x32000, .f32⟩ : BufTy).Contents (Elt F)),
    nullary main_call0_cst_1 (constant S_ .f32 0x00000000#32 : (⟨S_, .f32⟩ : BufTy).Contents (Elt F)),
    binary main_call0_v6 main_call0_cst_1 main_call0_v7 (fun x v => Host.reduceAdd x v reducesTo_S2x2048x32000_S2x2048_d2 h_S_ : (⟨S2x2048x32000, .f32⟩ : BufTy).Contents (Elt F) → (⟨S_, .f32⟩ : BufTy).Contents (Elt F) → (⟨S2x2048, .f32⟩ : BufTy).Contents (Elt F)),
    unary main_call0_v7 main_call0_v8 (broadcastInDim S2x2048x1 ![0, 1] bcast_S2x2048_S2x2048x1_0_1 : (⟨S2x2048, .f32⟩ : BufTy).Contents (Elt F) → (⟨S2x2048x1, .f32⟩ : BufTy).Contents (Elt F)),
    unary main_call0_v8 main_call0_v9 (Host.log : (⟨S2x2048x1, .f32⟩ : BufTy).Contents (Elt F) → (⟨S2x2048x1, .f32⟩ : BufTy).Contents (Elt F)),
    unary main_call0_v9 main_call0_v10 (broadcastInDim S2x2048x32000 ![0, 1, 2] bcast_S2x2048x1_S2x2048x32000_0_1_2 : (⟨S2x2048x1, .f32⟩ : BufTy).Contents (Elt F) → (⟨S2x2048x32000, .f32⟩ : BufTy).Contents (Elt F)),
    binary main_call0_v5 main_call0_v10 main_v11 (subf : (⟨S2x2048x32000, .f32⟩ : BufTy).Contents (Elt F) → (⟨S2x2048x32000, .f32⟩ : BufTy).Contents (Elt F) → (⟨S2x2048x32000, .f32⟩ : BufTy).Contents (Elt F)),
    unary main_arg0 main_call1_v0 (Host.absf : (⟨S2x2048x32000, .f32⟩ : BufTy).Contents (Elt F) → (⟨S2x2048x32000, .f32⟩ : BufTy).Contents (Elt F)),
    nullary main_call1_cst (constant S_ .f32 0x7F800000#32 : (⟨S_, .f32⟩ : BufTy).Contents (Elt F)),
    unary main_call1_cst main_call1_v1 (broadcastInDim S2x2048x32000 ![] bcast_S_S2x2048x32000 : (⟨S_, .f32⟩ : BufTy).Contents (Elt F) → (⟨S2x2048x32000, .f32⟩ : BufTy).Contents (Elt F)),
    binary main_call1_v0 main_call1_v1 main_v12 (cmpf .oeq : (⟨S2x2048x32000, .f32⟩ : BufTy).Contents (Elt F) → (⟨S2x2048x32000, .f32⟩ : BufTy).Contents (Elt F) → (⟨S2x2048x32000, .i1⟩ : BufTy).Contents (Elt F)),
    binary main_v10 main_v11 main_v13 (mulf : (⟨S2x2048x32000, .f32⟩ : BufTy).Contents (Elt F) → (⟨S2x2048x32000, .f32⟩ : BufTy).Contents (Elt F) → (⟨S2x2048x32000, .f32⟩ : BufTy).Contents (Elt F)),
    nullary main_cst_2 (constant S_ .f32 0x00000000#32),
    unary main_cst_2 main_call2_v0 (id : (⟨S_, .f32⟩ : BufTy).Contents (Elt F) → (⟨S_, .f32⟩ : BufTy).Contents (Elt F)),
    unary main_call2_v0 main_call2_v1 (broadcastInDim S2x2048x32000 ![] bcast_S_S2x2048x32000 : (⟨S_, .f32⟩ : BufTy).Contents (Elt F) → (⟨S2x2048x32000, .f32⟩ : BufTy).Contents (Elt F)),
    ternary main_v12 main_call2_v1 main_v13 main_v14 (select : (⟨S2x2048x32000, .i1⟩ : BufTy).Contents (Elt F) → (⟨S2x2048x32000, .f32⟩ : BufTy).Contents (Elt F) → (⟨S2x2048x32000, .f32⟩ : BufTy).Contents (Elt F) → (⟨S2x2048x32000, .f32⟩ : BufTy).Contents (Elt F)),
    nullary main_cst_3 (constant S_ .f32 0x00000000#32),
    binary main_v14 main_cst_3 main_v15 ((fun x v => Host.reduceAdd x v reducesTo_S2x2048x32000_S2x2048_d2 h_S_) : (⟨S2x2048x32000, .f32⟩ : BufTy).Contents (Elt F) → (⟨S_, .f32⟩ : BufTy).Contents (Elt F) → (⟨S2x2048, .f32⟩ : BufTy).Contents (Elt F)),
    reshape main_v15 main_v16 rfl shapeCasts_S2x2048_S4096,
    nullary main_c (constantI S_ 32 4294967196#32),
    unary main_c main_v17 (broadcastInDim S2x2048 ![] bcast_S_S2x2048 : (⟨S_, .i32⟩ : BufTy).Contents (Elt F) → (⟨S2x2048, .i32⟩ : BufTy).Contents (Elt F)),
    binary main_arg2 main_v17 main_v18 (cmpi .ne : (⟨S2x2048, .i32⟩ : BufTy).Contents (Elt F) → (⟨S2x2048, .i32⟩ : BufTy).Contents (Elt F) → (⟨S2x2048, .i1⟩ : BufTy).Contents (Elt F)),
    unary main_v18 main_v19 (uitofp .f32 : (⟨S2x2048, .i1⟩ : BufTy).Contents (Elt F) → (⟨S2x2048, .f32⟩ : BufTy).Contents (Elt F)),
    reshape main_v19 main_v20 rfl shapeCasts_S2x2048_S4096,
    binary main_v16 main_v20 main_v21 (mulf : (⟨S4096, .f32⟩ : BufTy).Contents (Elt F) → (⟨S4096, .f32⟩ : BufTy).Contents (Elt F) → (⟨S4096, .f32⟩ : BufTy).Contents (Elt F)),
    nullary main_cst_4 (constant S_ .f32 0x00000000#32),
    binary main_v21 main_cst_4 main_v22 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v22 main_v23 (Host.negf : (⟨S_, .f32⟩ : BufTy).Contents (Elt F) → (⟨S_, .f32⟩ : BufTy).Contents (Elt F)),
    nullary main_cst_5 (constant S_ .f32 0x00000000#32),
    binary main_v20 main_cst_5 main_v24 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    binary main_v23 main_v24 main_v25 (Host.divf : (⟨S_, .f32⟩ : BufTy).Contents (Elt F) → (⟨S_, .f32⟩ : BufTy).Contents (Elt F) → (⟨S_, .f32⟩ : BufTy).Contents (Elt F)) ]

attribute [local irreducible] Host.reduce Host.reduceAdd Host.exp Host.log Host.absf Host.divf Host.negf select cmpf cmpi uitofp mulf subf maximumf broadcastInDim constant constantI shapeCast in
set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., binary_bufs_sub .., nullary_bufs_sub .., unary_bufs_sub .., unary_bufs_sub .., ternary_bufs_sub .., nullary_bufs_sub .., binary_bufs_sub .., reshape_bufs_sub .., nullary_bufs_sub .., unary_bufs_sub .., binary_bufs_sub .., unary_bufs_sub .., reshape_bufs_sub .., binary_bufs_sub .., nullary_bufs_sub .., binary_bufs_sub .., unary_bufs_sub .., nullary_bufs_sub .., binary_bufs_sub .., binary_bufs_sub ..⟩

set_option maxRecDepth 8192 in
set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = Host.divf (Host.negf (Host.reduceAdd (mulf (shapeCast _ (Host.reduceAdd (select (cmpf .oeq (Host.absf (m ((c.tc : Thread nD τ).loc main_arg0))) (broadcastInDim S2x2048x32000 ![] bcast_S_S2x2048x32000 (constant S_ .f32 0x7F800000#32))) (broadcastInDim S2x2048x32000 ![] bcast_S_S2x2048x32000 (id (constant S_ .f32 0x00000000#32))) (mulf (Host.divf (Host.exp (subf (m ((c.tc : Thread nD τ).loc main_arg1)) (broadcastInDim S2x2048x32000 ![0, 1, 2] bcast_S2x2048x1_S2x2048x32000_0_1_2 (broadcastInDim S2x2048x1 ![0, 1] bcast_S2x2048_S2x2048x1_0_1 (maximumf (broadcastInDim S2x2048 ![] bcast_S_S2x2048 (constant S_ .f32 0xFF800000#32)) (Host.reduce FloatOps.maximumf (m ((c.tc : Thread nD τ).loc main_arg1)) (constant S_ .f32 0xFF800000#32) reducesTo_S2x2048x32000_S2x2048_d2 h_S_)))))) (broadcastInDim S2x2048x32000 ![0, 1, 2] bcast_S2x2048x1_S2x2048x32000_0_1_2 (broadcastInDim S2x2048x1 ![0, 1] bcast_S2x2048_S2x2048x1_0_1 (Host.reduceAdd (Host.exp (subf (m ((c.tc : Thread nD τ).loc main_arg1)) (broadcastInDim S2x2048x32000 ![0, 1, 2] bcast_S2x2048x1_S2x2048x32000_0_1_2 (broadcastInDim S2x2048x1 ![0, 1] bcast_S2x2048_S2x2048x1_0_1 (maximumf (broadcastInDim S2x2048 ![] bcast_S_S2x2048 (constant S_ .f32 0xFF800000#32)) (Host.reduce FloatOps.maximumf (m ((c.tc : Thread nD τ).loc main_arg1)) (constant S_ .f32 0xFF800000#32) reducesTo_S2x2048x32000_S2x2048_d2 h_S_)))))) (constant S_ .f32 0x00000000#32) reducesTo_S2x2048x32000_S2x2048_d2 h_S_)))) (subf (subf (m ((c.tc : Thread nD τ).loc main_arg0)) (broadcastInDim S2x2048x32000 ![0, 1, 2] bcast_S2x2048x1_S2x2048x32000_0_1_2 (broadcastInDim S2x2048x1 ![0, 1] bcast_S2x2048_S2x2048x1_0_1 (maximumf (broadcastInDim S2x2048 ![] bcast_S_S2x2048 (constant S_ .f32 0xFF800000#32)) (Host.reduce FloatOps.maximumf (m ((c.tc : Thread nD τ).loc main_arg0)) (constant S_ .f32 0xFF800000#32) reducesTo_S2x2048x32000_S2x2048_d2 h_S_))))) (broadcastInDim S2x2048x32000 ![0, 1, 2] bcast_S2x2048x1_S2x2048x32000_0_1_2 (Host.log (broadcastInDim S2x2048x1 ![0, 1] bcast_S2x2048_S2x2048x1_0_1 (Host.reduceAdd (Host.exp (subf (m ((c.tc : Thread nD τ).loc main_arg0)) (broadcastInDim S2x2048x32000 ![0, 1, 2] bcast_S2x2048x1_S2x2048x32000_0_1_2 (broadcastInDim S2x2048x1 ![0, 1] bcast_S2x2048_S2x2048x1_0_1 (maximumf (broadcastInDim S2x2048 ![] bcast_S_S2x2048 (constant S_ .f32 0xFF800000#32)) (Host.reduce FloatOps.maximumf (m ((c.tc : Thread nD τ).loc main_arg0)) (constant S_ .f32 0xFF800000#32) reducesTo_S2x2048x32000_S2x2048_d2 h_S_)))))) (constant S_ .f32 0x00000000#32) reducesTo_S2x2048x32000_S2x2048_d2 h_S_))))))) (constant S_ .f32 0x00000000#32) reducesTo_S2x2048x32000_S2x2048_d2 h_S_) shapeCasts_S2x2048_S4096) (shapeCast _ (uitofp .f32 (cmpi .ne (m ((c.tc : Thread nD τ).loc main_arg2)) (broadcastInDim S2x2048 ![] bcast_S_S2x2048 (constantI S_ 32 4294967196#32)))) shapeCasts_S2x2048_S4096)) (constant S_ .f32 0x00000000#32) reducesTo_S4096_S_d0 h_S_)) (Host.reduceAdd (shapeCast _ (uitofp .f32 (cmpi .ne (m ((c.tc : Thread nD τ).loc main_arg2)) (broadcastInDim S2x2048 ![] bcast_S_S2x2048 (constantI S_ 32 4294967196#32)))) shapeCasts_S2x2048_S4096) (constant S_ .f32 0x00000000#32) reducesTo_S4096_S_d0 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v25).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.HostRun

end
-- ==== Proof.RowSpec.lean ====
/-
  The two row formulas of the distillation loss, over the extended reals, with no program in sight.

  A row is a pair of functions on the 32000 vocabulary positions: the student's logits `l` and the teacher's `t`.
  With `m_t = max t`, `m_l = max l`, `e k = exp (t k - m_t)`, `s k = l k - m_l`,
  `T = ∑ e`, `L = ∑ exp s`, both programs compute the cross term of the teacher's softmax with the student's
  log-softmax, every position whose logit is infinite left out:

    the reference, position by position:   ∑ₖ [l k finite] (e k / T) · (s k − log L)
    the kernel, with the two normalisers factored out of the sum:
                                           ((∑ₖ [l k finite] e k · s k) − log L · (∑ₖ [l k finite] e k)) / T

  and the kernel takes every maximum and every sum in ten pieces of 3200 consecutive positions, accumulated
  from the left. The words `-∞`, `+∞` and `0` are kept as the bit patterns both programs spell.
-/
import Idealize.ShloMosaic.PureOps.Ideal

noncomputable section

namespace Cert.KD

open Idealize.ShloMosaic

/-- The pattern of `-∞`, the start of every maximum. -/
abbrev negInf : EReal := Ideal.ofBits .f32 0xFF800000#32
/-- The pattern of `+∞`, against which `isinf` compares an absolute value. -/
abbrev posInf : EReal := Ideal.ofBits .f32 0x7F800000#32
/-- The pattern of `0`, the start of every sum and the value a masked position contributes. -/
abbrev zero : EReal := Ideal.ofBits .f32 0x00000000#32

/-- `isinf x` as both programs spell it: `|x| = +∞`, an `i1`. -/
def isInf (x : EReal) : BitVec 1 := Ideal.cmp .oeq (max x (-x)) posInf

/-- `where (isinf lk) 0 v`: the value `v` unless the logit `lk` is infinite. -/
def masked (lk v : EReal) : EReal := Scalar.select (isInf lk) zero v

/-- The maximum of finitely many values, from `-∞`. -/
def foldMax {n : Nat} (f : Fin n → EReal) : EReal := (Finset.univ : Finset (Fin n)).fold max negInf f

/-- Position `j` of piece `c`: the vocabulary position `3200 · c + j`. -/
def col (c : Fin 10) (j : Fin 3200) : Fin 32000 := ⟨3200 * c.val + j.val, by have := c.isLt; have := j.isLt; omega⟩

/-- Ten values combined from the left, starting at `init`: the kernel's accumulation over its ten pieces. -/
def acc10 (op : EReal → EReal → EReal) (init : EReal) (p : Fin 10 → EReal) : EReal :=
  op (op (op (op (op (op (op (op (op (op init (p 0)) (p 1)) (p 2)) (p 3)) (p 4)) (p 5)) (p 6)) (p 7)) (p 8)) (p 9)

/-- The reference's row: the masked sum, position by position, of softmax(t) · log_softmax(l). -/
def refRow (l t : Fin 32000 → EReal) : EReal :=
  let mt := max negInf (foldMax t)
  let ml := max negInf (foldMax l)
  let e := fun k => Ideal.exp (t k - mt)
  let s := fun k => l k - ml
  let T := zero + ∑ k, e k
  let L := zero + ∑ k, Ideal.exp (s k)
  zero + ∑ k, masked (l k) (Ideal.div (e k) T * (s k - Ideal.log L))

/-- The kernel's row: maxima and sums in ten pieces, the normalisers applied once at the end. -/
def kerRow (l t : Fin 32000 → EReal) : EReal :=
  let mt := acc10 max negInf fun c => foldMax fun j => t (col c j)
  let ml := acc10 max negInf fun c => foldMax fun j => l (col c j)
  let e := fun k => Ideal.exp (t k - mt)
  let s := fun k => l k - ml
  let T := acc10 (· + ·) zero fun c => ∑ j, e (col c j)
  let L := acc10 (· + ·) zero fun c => ∑ j, Ideal.exp (s (col c j))
  let A := acc10 (· + ·) zero fun c => ∑ j, masked (l (col c j)) (e (col c j) * s (col c j))
  let B := acc10 (· + ·) zero fun c => ∑ j, masked (l (col c j)) (e (col c j))
  Ideal.div (A - Ideal.log L * B) T

end Cert.KD

end
-- ==== Proof.LibLane.lean ====
/-
  Lane operations of a two-axis array read at an index, over any extents `a × b`:

  * `ld_lanes`: a unit-stride load of `b` consecutive lanes from lane `off` of every row of an `a × n` block reads,
    at (r, j), the block at (r, off + j);
  * `lift_lane`: the index over row `r` of the lane-reduced shape `[a]` whose lane is `k` is (r, k);
  * `reduceAdd_lane_apply`: the sum over the lanes (`Ideal.reduceAdd` over axis 1) reads, at row `r`, the sum of the row;
  * `reduceFold_max_lane_apply`: the fold of `maximumf` over the lanes (`reduceFold` over axis 1) reads, at row `r`, the
    `Finset.fold max` of the row from the starting value;
  * `exp_apply`, `log_apply`, `absf_apply`, `cmpf_ideal_apply`: the entry-by-entry operations the library's index file
    does not list, at the extended reals.

  A `vector.multi_reduction <add>` over one axis is, by definition, `FloatOps.reduceAdd` of the source over that axis — at
  the extended reals `Ideal.reduceAdd` — and a `<maximumf>` one is `reduceFold` of `maximumf` from the accumulator's value:
  the sum lemma and the maximum lemma are stated over those two forms.
-/
import Idealize.ShloMosaic.Lib.Pipeline.FrameBody
import Idealize.ShloMosaic.Lib.Pipeline.Value
import Idealize.ShloMosaic.Lib.ValueIdx
import Idealize.ShloMosaic.PureOps.Ideal.Laws

noncomputable section

namespace Cert.LibLane

open Idealize.ShloMosaic Idealize.ShloMosaic.ValueIdx

/-! ## Entry-by-entry operations -/

theorem exp_apply {s : Shape} (v : FVec Ideal s .f32) (i : s.Idx) : exp v i = Ideal.exp (v i) := rfl
theorem log_apply {s : Shape} (v : FVec Ideal s .f32) (i : s.Idx) : log v i = Ideal.log (v i) := rfl
theorem absf_apply {s : Shape} (v : FVec Ideal s .f32) (i : s.Idx) : absf v i = max (v i) (-(v i)) := rfl
theorem cmpf_ideal_apply {s : Shape} (p : CmpFPredicate) (a b : FVec Ideal s .f32) (i : s.Idx) :
    cmpf p a b i = Ideal.cmp p (a i) (b i) := rfl

/-! ## A load of `b` consecutive lanes, from lane `off`, of every row of an `a × n` block -/

/-- The load reads, at row `r` and lane `j` of the piece, the block at row `r` and lane `off + j`. -/
theorem ld_lanes {α : Type} {a b n : ℕ} (X : (⟨2, ![a, n]⟩ : Shape).Idx → α) (off : ℕ)
    (inb : ∀ ax, (![0, off] : Fin 2 → ℕ) ax + (⟨2, ![a, b]⟩ : Shape).size ax ≤ (⟨2, ![a, n]⟩ : Shape).size ax)
    (r : Fin a) (j : Fin b) (hj : off + j.val < n) :
    (fun x => X ((Rect.unit (s := ⟨2, ![a, n]⟩) ![0, off] (⟨2, ![a, b]⟩ : Shape).size inb).idx x)) (ix2 r j)
      = X (ix2 r ⟨off + j.val, hj⟩) := by
  show X _ = X _
  congr 1
  funext ax
  apply Fin.ext
  match ax with
  | ⟨0, _⟩ => show 0 + 1 * r.val = r.val; omega
  | ⟨1, _⟩ => show off + 1 * j.val = off + j.val; omega

/-! ## A lane reduction kept as a column -/

/-- The index of an `a × b` array over row `r` whose lane is `k`. -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the lanes of an `a × b` array reads, at row `r`, the sum of the row. -/
theorem reduceAdd_lane_apply {a b : ℕ} (v : FVec Ideal ⟨2, ![a, b]⟩ .f32)
    (h : (⟨2, ![a, b]⟩ : Shape).Reduces [1] (⟨1, ![a]⟩ : Shape)) (r : Fin a) :
    Ideal.reduceAdd h v (ix1 r) = ∑ j : Fin b, v (ix2 r j) := by
  rw [Ideal.reduceAdd_single]
  exact Finset.sum_congr rfl fun k _ => congrArg v (lift_lane h r k)

/-- The maximum over the lanes likewise: at row `r` the fold of `max` over the row from the starting value. -/
theorem reduceFold_max_lane_apply {a b : ℕ} (v : FVec Ideal ⟨2, ![a, b]⟩ .f32)
    (h : (⟨2, ![a, b]⟩ : Shape).Reduces [1] (⟨1, ![a]⟩ : Shape)) (init : Ideal .f32) (r : Fin a) :
    reduceFold h (FloatOps.maximumf (F := Ideal) (φ := .f32)) init v (ix1 r)
      = (Finset.univ : Finset (Fin b)).fold max init fun j => v (ix2 r j) := by
  rw [reduceFold_eq_fold]
  refine (h.fold_filter_drop_single _ _ v (ix1 r)).trans ?_
  have hf : (v ∘ h.lift (ix1 r)) = fun k : Fin b => v (ix2 r k) := funext fun k => congrArg v (lift_lane h r k)
  exact congrArg (fun f => Finset.fold max init f (Finset.univ : Finset (Fin b))) hf

end Cert.LibLane

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KerRow.lean ====
/-
  One row of the kernel's output block, as the row formula `kerRow` of the two input blocks' rows.

  The body loads each input block in ten pieces of 3200 lanes (twice: once for the maxima, once for the sums), and
  leaves in row `r` of its 64 × 1 output block a value that depends on row `r` of the two input blocks only: every
  operation of the body is either entry by entry, or a reduction along the lanes of one row, or the broadcast of a
  column along the lanes. Pushing the index (r, 0) through the body's operations gives the row formula.
-/
import proofs.«116429_j867583393854_2_alg».proof.Proof.Gen.KernelIdeal.Frame
import proofs.«116429_j867583393854_2_alg».proof.Proof.RowSpec
import proofs.«116429_j867583393854_2_alg».proof.Proof.LibLane
import proofs.«116429_j867583393854_2_alg».proof.Proof.LibColumn

set_option maxRecDepth 16384

noncomputable section

namespace Cert.KD.Ker

open Idealize.ShloMosaic Idealize.ShloMosaic.ValueIdx Cert.KernelIdeal Cert.KernelIdeal.Gen Cert.KD Cert.LibLane

theorem hz : (![0, 0] : Fin 2 → Nat) = fun _ => 0 := funext fun a => by fin_cases a <;> rfl

/-! ## The ten pieces of a row block: piece `c` at lane `j` is the block at lane `3200 · c + j` -/

theorem idx_piece0 (r : Fin 64) (j : Fin 3200) : r0_0.idx (ix2 r j) = ix2 r (col 0 j) := by
  funext ax; apply Fin.ext
  match ax with
  | ⟨0, _⟩ => show 0 + 1 * r.val = r.val; omega
  | ⟨1, _⟩ => show 0 + 1 * j.val = 3200 * (0 : Fin 10).val + j.val; simp
theorem idx_piece1 (r : Fin 64) (j : Fin 3200) : r0_1.idx (ix2 r j) = ix2 r (col 1 j) := by
  funext ax; apply Fin.ext
  match ax with
  | ⟨0, _⟩ => show 0 + 1 * r.val = r.val; omega
  | ⟨1, _⟩ => show 3200 + 1 * j.val = 3200 * (1 : Fin 10).val + j.val; simp
theorem idx_piece2 (r : Fin 64) (j : Fin 3200) : r0_2.idx (ix2 r j) = ix2 r (col 2 j) := by
  funext ax; apply Fin.ext
  match ax with
  | ⟨0, _⟩ => show 0 + 1 * r.val = r.val; omega
  | ⟨1, _⟩ => show 6400 + 1 * j.val = 3200 * (2 : Fin 10).val + j.val; simp
theorem idx_piece3 (r : Fin 64) (j : Fin 3200) : r0_3.idx (ix2 r j) = ix2 r (col 3 j) := by
  funext ax; apply Fin.ext
  match ax with
  | ⟨0, _⟩ => show 0 + 1 * r.val = r.val; omega
  | ⟨1, _⟩ => show 9600 + 1 * j.val = 3200 * (3 : Fin 10).val + j.val; simp
theorem idx_piece4 (r : Fin 64) (j : Fin 3200) : r0_4.idx (ix2 r j) = ix2 r (col 4 j) := by
  funext ax; apply Fin.ext
  match ax with
  | ⟨0, _⟩ => show 0 + 1 * r.val = r.val; omega
  | ⟨1, _⟩ => show 12800 + 1 * j.val = 3200 * (4 : Fin 10).val + j.val; simp
theorem idx_piece5 (r : Fin 64) (j : Fin 3200) : r0_5.idx (ix2 r j) = ix2 r (col 5 j) := by
  funext ax; apply Fin.ext
  match ax with
  | ⟨0, _⟩ => show 0 + 1 * r.val = r.val; omega
  | ⟨1, _⟩ => show 16000 + 1 * j.val = 3200 * (5 : Fin 10).val + j.val; simp
theorem idx_piece6 (r : Fin 64) (j : Fin 3200) : r0_6.idx (ix2 r j) = ix2 r (col 6 j) := by
  funext ax; apply Fin.ext
  match ax with
  | ⟨0, _⟩ => show 0 + 1 * r.val = r.val; omega
  | ⟨1, _⟩ => show 19200 + 1 * j.val = 3200 * (6 : Fin 10).val + j.val; simp
theorem idx_piece7 (r : Fin 64) (j : Fin 3200) : r0_7.idx (ix2 r j) = ix2 r (col 7 j) := by
  funext ax; apply Fin.ext
  match ax with
  | ⟨0, _⟩ => show 0 + 1 * r.val = r.val; omega
  | ⟨1, _⟩ => show 22400 + 1 * j.val = 3200 * (7 : Fin 10).val + j.val; simp
theorem idx_piece8 (r : Fin 64) (j : Fin 3200) : r0_8.idx (ix2 r j) = ix2 r (col 8 j) := by
  funext ax; apply Fin.ext
  match ax with
  | ⟨0, _⟩ => show 0 + 1 * r.val = r.val; omega
  | ⟨1, _⟩ => show 25600 + 1 * j.val = 3200 * (8 : Fin 10).val + j.val; simp
theorem idx_piece9 (r : Fin 64) (j : Fin 3200) : r0_9.idx (ix2 r j) = ix2 r (col 9 j) := by
  funext ax; apply Fin.ext
  match ax with
  | ⟨0, _⟩ => show 0 + 1 * r.val = r.val; omega
  | ⟨1, _⟩ => show 28800 + 1 * j.val = 3200 * (9 : Fin 10).val + j.val; simp

/-- A vector of 64 entries cast to a 64 × 1 column reads, at row `r`, the vector's entry `r`. -/
theorem colCast_apply (X : FVec Ideal S64 .f32) (hsc : S64.ShapeCasts S64x1) (r : Fin 64) (u : Fin 1) :
    shapeCast S64x1 X hsc (ix2 r u) = X (ix1 r) := Cert.LibColumn.shapeCast_a_a1_apply X hsc r u

/-- A column broadcast along the 3200 lanes of a piece reads the column's entry of the row. -/
theorem colBroadcast_apply (v : FVec Ideal S64x1 .f32) (h : S64x1.Broadcasts S64x3200) (r : Fin 64) (j : Fin 3200) :
    broadcastTo S64x3200 v h (ix2 r j) = v (ix2 r (0 : Fin 1)) :=
  Cert.LibColumn.broadcastTo_a1_ab_apply v h r j

/-! ## The row -/

set_option maxHeartbeats 4000000 in
/-- Row `r` of what the body leaves in its output block is the kernel's row formula of row `r` of the logits block
    `x0` and of the teacher block `x1`. -/
theorem out_row (x0 x1 : Vec Ideal S64x32000 .f32) (r : Fin 64) :
    out0_2 (F := Ideal) x0 x1 (ix2 r (0 : Fin 1))
      = kerRow (fun k => x0 (ix2 r k)) (fun k => x1 (ix2 r k)) := by
  unfold out0_2
  rw [View.canon_unit_zero hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]
  unfold multiReduction
  simp only [divf_apply, subf_apply, mulf_apply, addf_apply, maximumf_apply, log_apply, exp_apply, absf_apply, cmpf_ideal_apply,
    select_apply, broadcast_apply, View.ld, colCast_apply, Ideal.reduceAdd_def, reduceAdd_lane_apply, reduceFold_max_lane_apply,
    colBroadcast_apply, shapeCast_self,
    idx_piece0, idx_piece1, idx_piece2, idx_piece3, idx_piece4, idx_piece5, idx_piece6, idx_piece7, idx_piece8, idx_piece9,
    Ideal.ofBits_def]
  simp only [kerRow, acc10, foldMax, masked, isInf]

end Cert.KD.Ker

end
-- ==== Proof.RowOf.lean ====
/-
  One row of a 2 × 2048 × 32000 array, as a function of the vocabulary position: row `i` of the 4096 rows, counted
  in row-major order over the two leading axes, is the row at batch `i / 2048` and sequence position `i % 2048`.
-/
import Idealize.ShloMosaic.Lib.ValueIdx

namespace Cert.KD

open Idealize.ShloMosaic Idealize.ShloMosaic.ValueIdx

/-- The batch index of flat row `i`. -/
def rowB (i : Fin 4096) : Fin 2 := ⟨i.val / 2048, by have := i.isLt; omega⟩
/-- The sequence position of flat row `i`. -/
def rowS (i : Fin 4096) : Fin 2048 := ⟨i.val % 2048, by omega⟩

/-- Row `i` of a 2 × 2048 × 32000 array. -/
def rowOf {α : Type} (x : (⟨3, ![2, 2048, 32000]⟩ : Shape).Idx → α) (i : Fin 4096) : Fin 32000 → α :=
  fun k => x (ix3 (rowB i) (rowS i) k)

end Cert.KD
-- ==== Proof.Tail.lean ====
/-
  The last step both programs share: from the vector of the 4096 rows' cross terms `X` and the vector `M` of the
  labels' mask (1 where the label is not -100, else 0), the loss is minus the sum of `X · M` divided by the sum of
  `M`. It is carried as one function of `X` and `M`: two programs that feed it equal vectors have equal results,
  whatever the two sums are.
-/
import Idealize.ShloMosaic.PureOps.Ideal

noncomputable section

namespace Cert.KD

open Idealize.ShloMosaic

/-- The shape of the 4096 rows as one vector. -/
abbrev SRows : Shape := ⟨1, ![4096]⟩
/-- The shape of a scalar. -/
abbrev SScalar : Shape := ⟨0, ![]⟩

/-- Minus the masked sum of the rows over the mask's sum. -/
def lossTail (h1 : SRows.ReducesTo [0] SScalar) (h2 : 0 < SScalar.numel) (X M : FVec Ideal SRows .f32) : FVec Ideal SScalar .f32 :=
  Host.divf (Host.negf (Host.reduceAdd (mulf X M) (constant SScalar .f32 0x00000000#32) h1 h2))
    (Host.reduceAdd M (constant SScalar .f32 0x00000000#32) h1 h2)

end Cert.KD

end
-- ==== Proof.KerArray.lean ====
/-
  From the body's rows to the kernel program's result.

  The pallas_call walks 64 grid points; point `t` reads rows 64·t … 64·t+63 of the two 4096 × 32000 input arrays and
  writes rows 64·t … 64·t+63 of the 4096 × 1 output array, each output row the row formula of the same row of the
  inputs. The 64 blocks tile the output array, so the array ends as one function of the two input arrays, row by row.
  Before the call the two inputs are the arguments flattened over their two leading axes; after it the output column
  is flattened to a vector, multiplied by the mask of the labels, summed, negated and divided by the mask's sum.
-/
import proofs.«116429_j867583393854_2_alg».proof.Proof.KerRow
import proofs.«116429_j867583393854_2_alg».proof.Proof.RowOf
import proofs.«116429_j867583393854_2_alg».proof.Proof.Tail
import Idealize.ShloMosaic.Lib.StableHlo.Run
import Idealize.ShloMosaic.Lib.Pipeline.Value

set_option maxRecDepth 16384

noncomputable section

namespace Cert.KD.Arr

open Idealize.ShloMosaic Idealize.ShloMosaic.TcCoe Idealize.ShloMosaic.ValueIdx Idealize.SL.Sem Idealize.ShloMosaic.StableHlo
open Cert.KernelIdeal Cert.KernelIdeal.Gen Cert.KD

variable (m : (ℓ : Loc nD τ sig) → Buf (Elt Ideal) ℓ) (ρ : Dev nD → PrngReg)

/-- The output array as a function of the two input arrays: row `i` is the row formula of row `i` of each. -/
def rows (L T : S4096x32000.Idx → Elt Ideal .f32) : S4096x1.Idx → Elt Ideal .f32 :=
  fun i => kerRow (fun k => L (ix2 (⟨(i 0).val, (i 0).isLt⟩ : Fin 4096) k)) (fun k => T (ix2 (⟨(i 0).val, (i 0).isLt⟩ : Fin 4096) k))

/-- The printed index maps over the grid: point `t` takes block row `t` of each array, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `rows` of the two arrays as the region finds them. -/
theorem flushed_eq (c : Dev nD) (t : Fin cfg0.N) :
    (dats m 0 c).flushed 2 t = ((cfg0.win 2).blk t).view.read (Elt Ideal) (rows (V m c main_v0) (V m c main_v1)) := by
  show (cfg0.win 2).cut (grid0.coords t) ((dats m 0 c).after 2 t) = _
  rw [after0_2]
  obtain ⟨e00, e01, e10, e11, e20, e21⟩ := idx_facts t
  funext y
  obtain ⟨p, u, rfl⟩ : ∃ (p : Fin 64) (u : Fin 1), y = ix2 p u := ⟨y 0, y 1, eq_ix2 y⟩
  obtain rfl : u = 0 := Subsingleton.elim _ _
  show out0_2 (iblk m c 0 t) (iblk m c 1 t) (ix2 p (0 : Fin 1)) = rows (V m c main_v0) (V m c main_v1) (((cfg0.win 2).blk t).view.emb (ix2 p (0 : Fin 1)))
  rw [Ker.out_row]
  unfold rows
  have h0 : ∀ k : Fin 32000, iblk m c 0 t (ix2 p k)
      = V m c main_v0 (ix2 (⟨(((cfg0.win 2).blk t).view.emb (ix2 p (0 : Fin 1)) 0).val, (((cfg0.win 2).blk t).view.emb (ix2 p (0 : Fin 1)) 0).isLt⟩ : Fin 4096) k) := fun k => by
    show V m c main_v0 (((cfg0.win 0).blk t).view.emb (ix2 p k)) = _
    refine congrArg (V m c main_v0) ?_
    funext a; apply Fin.ext
    match a with
    | ⟨0, _⟩ => show win0_0.index t (0 : Fin 2) * 64 + 1 * p.val = win0_2.index t (0 : Fin 2) * 64 + 1 * p.val; omega
    | ⟨1, _⟩ => show win0_0.index t (1 : Fin 2) * 32000 + 1 * k.val = k.val; omega
  have h1 : ∀ k : Fin 32000, iblk m c 1 t (ix2 p k)
      = V m c main_v1 (ix2 (⟨(((cfg0.win 2).blk t).view.emb (ix2 p (0 : Fin 1)) 0).val, (((cfg0.win 2).blk t).view.emb (ix2 p (0 : Fin 1)) 0).isLt⟩ : Fin 4096) k) := fun k => by
    show V m c main_v1 (((cfg0.win 1).blk t).view.emb (ix2 p k)) = _
    refine congrArg (V m c main_v1) ?_
    funext a; apply Fin.ext
    match a with
    | ⟨0, _⟩ => show win0_1.index t (0 : Fin 2) * 64 + 1 * p.val = win0_2.index t (0 : Fin 2) * 64 + 1 * p.val; omega
    | ⟨1, _⟩ => show win0_1.index t (1 : Fin 2) * 32000 + 1 * k.val = k.val; omega
  rw [funext h0, funext h1]

/-- An index of the output array is in point `t`'s block iff each coordinate is in the block's range on its axis. -/
theorem mem_blk (t : Fin cfg0.N) (i : S4096x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v2).slice (win0_2.rect t)).set ↔ _
  rw [View.set_slice_whole, Rect.mem_set_unit]
  exact Iff.rfl

/-- Every row of the output array is in the block of the point that is the row's number divided by 64. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 64 := N_0
  let t : Fin cfg0.N := ⟨(i 0).val / 64, by rw [hN]; omega⟩
  obtain ⟨-, -, -, -, e20, e21⟩ := idx_facts t
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64
              have ht : t.val = (i 0).val / 64 := rfl
              omega
  | ⟨1, _⟩ => show win0_2.index t (1 : Fin 2) * 1 ≤ (i 1).val ∧ (i 1).val < win0_2.index t (1 : Fin 2) * 1 + 1; omega

/-- The output array after the run: `rows` of the two arrays the region finds. -/
theorem final (c : Dev nD) : (dats m 0 c).arrAt 2 cfg0.N = rows (V m c main_v0) (V m c main_v1) :=
  (dats m 0 c).arrAt_eq_of_cover 2 (rows (V m c main_v0) (V m c main_v1)) (fun t _ => flushed_eq m c t) cover

/-! ## The two arrays the region finds: the arguments flattened over their two leading axes -/

theorem V_v0 (c : Dev nD) : (V m c main_v0 : S4096x32000.Idx → Elt Ideal .f32)
    = shapeCast S4096x32000 (m ((c : Thread nD τ).loc main_arg0)) shapeCasts_S2x2048x32000_S4096x32000 := by
  show StableHlo.after (List.flatten [hostOps0]) (fun b => m (c, b)) (Proc.devRef .tc main_v0) = _
  simp only [hostOps0, List.flatten_cons, List.flatten_nil, List.append_nil]
  after_results
  rfl

theorem V_v1 (c : Dev nD) : (V m c main_v1 : S4096x32000.Idx → Elt Ideal .f32)
    = shapeCast S4096x32000 (m ((c : Thread nD τ).loc main_arg1)) shapeCasts_S2x2048x32000_S4096x32000 := by
  show StableHlo.after (List.flatten [hostOps0]) (fun b => m (c, b)) (Proc.devRef .tc main_v1) = _
  simp only [hostOps0, List.flatten_cons, List.flatten_nil, List.append_nil]
  after_results
  rfl

/-- The flattened array at flat row `i` is the argument at batch `i / 2048`, position `i % 2048`. -/
theorem flat_apply (x : S2x2048x32000.Idx → Elt Ideal .f32) (i : Fin 4096) (k : Fin 32000) :
    shapeCast S4096x32000 x shapeCasts_S2x2048x32000_S4096x32000 (ix2 i k) = x (ix3 (rowB i) (rowS i) k) :=
  shapeCast_apply x shapeCasts_S2x2048x32000_S4096x32000 (ix2 i k) (ix3 (rowB i) (rowS i) k) (by
    rw [Shape.rowMajor_val_three, Shape.rowMajor_val_two]
    show ((i.val / 2048) * 2048 + i.val % 2048) * 32000 + k.val = i.val * 32000 + k.val
    have := Nat.div_add_mod i.val 2048
    nlinarith [this])

/-! ## The host operations after the call -/

/-- The labels' mask as the kernel's program computes it: the labels flattened, compared with -100, as floats. -/
def maskK (x2 : IVec S2x2048 32) : FVec Ideal S4096 .f32 :=
  uitofp .f32 (cmpi .ne (shapeCast S4096 x2 shapeCasts_S2x2048_S4096) (broadcastInDim S4096 ![] bcast_S_S4096 (constantI S_ 32 4294967196#32)))

/-- The kernel program's result, as a function of its argument arrays on core `c`. -/
def result (c : Dev nD) : FVec Ideal S_ .f32 :=
  lossTail reducesTo_S4096_S_d0 h_S_
    (shapeCast S4096 (rows (V m c main_v0) (V m c main_v1)) shapeCasts_S4096x1_S4096)
    (maskK (m ((c.tc : Thread nD τ).loc main_arg2)))

attribute [local irreducible] Host.reduceAdd in
/-- The operations after the call, applied to the output array the call leaves and to the labels, are the shared
    last step on the flattened rows and the mask. -/
theorem tail_eq (c : Dev nD) :
    Pipeline.afterTail₀ cfgs (dats m) 0 (V0 m) [hostOps1] c main_v12 = result m c := by
  unfold Pipeline.afterTail₀
  simp only [List.flatten_cons, List.flatten_nil, List.append_nil]
  after_results
  have hX : Pipeline.withArrays (cfgs 0).spec c (V0 m c) (fun w => (dats m 0 c).arrAt w (cfgs 0).N) (Proc.devRef .tc main_v2)
      = rows (V m c main_v0) (V m c main_v1) :=
    (Pipeline.withArrays_arr spec0 launch0.win.arr_inj c _ _ 2).trans (final m c)
  have hA : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  rw [hX, hA]
  rfl

/-- The kernel program's run, re-posted: every weakly fair execution ends with the result buffer at `result` of the
    arguments and the arguments unchanged. -/
theorem run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v12 (Pipeline.mem_restRefs_of main_v12 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KD.Arr

end
-- ==== Proof.RefRows.lean ====
/-
  One row of the reference's masked product, read off its operations: at batch `b` and sequence position `s` the
  row sum the reference computes is the row formula `refRow` of row (b, s) of the logits and of the teacher's logits.

  Each operation of the reference reads its operands at one index (the broadcasts of a row's maximum, of its sum
  and of the logarithm read the row's column entry; the three row sums and the two row maxima run over the
  vocabulary axis), so the chain of operations at (b, s, k) only ever looks at row (b, s).
-/
import proofs.«116429_j867583393854_2_alg».proof.Proof.RefRead
import proofs.«116429_j867583393854_2_alg».proof.Proof.RowSpec
import proofs.«116429_j867583393854_2_alg».proof.Proof.RowOf
import Idealize.ShloMosaic.Lib.ValueIdx
import Idealize.ShloMosaic.PureOps.Ideal.Laws

noncomputable section

namespace Cert.KD.Ref

open Idealize.ShloMosaic Idealize.ShloMosaic.ValueIdx Cert.ReferenceIdeal Cert.ReferenceIdeal.Gen Cert.ReferenceIdeal.ReadP Cert.KD

/-- A float array of the reference's input shape, at the extended reals. -/
abbrev Arr := FVec Ideal S2x2048x32000 .f32

/-! ## The composed index functions, at indices built from their coordinates -/

theorem idx_v7 (b : Fin 2) (s : Fin 2048) (k : Fin 32000) : idx_main_v7 (ix2 b s) k = ix3 b s k := by
  funext a; match a with | ⟨0, _⟩ => rfl | ⟨1, _⟩ => rfl | ⟨2, _⟩ => rfl
theorem idx_c7 (b : Fin 2) (s : Fin 2048) (k : Fin 32000) : idx_main_call0_v7 (ix2 b s) k = ix3 b s k := by
  funext a; match a with | ⟨0, _⟩ => rfl | ⟨1, _⟩ => rfl | ⟨2, _⟩ => rfl
theorem idx_v15 (b : Fin 2) (s : Fin 2048) (k : Fin 32000) : idx_main_v15 (ix2 b s) k = ix3 b s k := by
  funext a; match a with | ⟨0, _⟩ => rfl | ⟨1, _⟩ => rfl | ⟨2, _⟩ => rfl
theorem idx_v4 (b : Fin 2) (s : Fin 2048) (k : Fin 32000) : idx_main_v4 (ix3 b s k) = ix3 b s (0 : Fin 1) := by
  funext a; match a with | ⟨0, _⟩ => rfl | ⟨1, _⟩ => rfl | ⟨2, _⟩ => rfl
theorem idx_v9 (b : Fin 2) (s : Fin 2048) (k : Fin 32000) : idx_main_v9 (ix3 b s k) = ix3 b s (0 : Fin 1) := by
  funext a; match a with | ⟨0, _⟩ => rfl | ⟨1, _⟩ => rfl | ⟨2, _⟩ => rfl
theorem idx_c4 (b : Fin 2) (s : Fin 2048) (k : Fin 32000) : idx_main_call0_v4 (ix3 b s k) = ix3 b s (0 : Fin 1) := by
  funext a; match a with | ⟨0, _⟩ => rfl | ⟨1, _⟩ => rfl | ⟨2, _⟩ => rfl
theorem idx_c10 (b : Fin 2) (s : Fin 2048) (k : Fin 32000) : idx_main_call0_v10 (ix3 b s k) = ix3 b s (0 : Fin 1) := by
  funext a; match a with | ⟨0, _⟩ => rfl | ⟨1, _⟩ => rfl | ⟨2, _⟩ => rfl
theorem idx_v3 (b : Fin 2) (s : Fin 2048) (u : Fin 1) : idx_main_v3 (ix3 b s u) = ix2 b s := by
  funext a; match a with | ⟨0, _⟩ => rfl | ⟨1, _⟩ => rfl
theorem idx_v8 (b : Fin 2) (s : Fin 2048) (u : Fin 1) : idx_main_v8 (ix3 b s u) = ix2 b s := by
  funext a; match a with | ⟨0, _⟩ => rfl | ⟨1, _⟩ => rfl
theorem idx_c3 (b : Fin 2) (s : Fin 2048) (u : Fin 1) : idx_main_call0_v3 (ix3 b s u) = ix2 b s := by
  funext a; match a with | ⟨0, _⟩ => rfl | ⟨1, _⟩ => rfl
theorem idx_c8 (b : Fin 2) (s : Fin 2048) (u : Fin 1) : idx_main_call0_v8 (ix3 b s u) = ix2 b s := by
  funext a; match a with | ⟨0, _⟩ => rfl | ⟨1, _⟩ => rfl

/-! ## The two row maxima: the host's reduce with a maximum body over the vocabulary axis, from `-∞` -/

theorem hostRowMax (x : FVec Ideal S2x2048x32000 .f32) (b : Fin 2) (s : Fin 2048) :
    Host.reduce (FloatOps.maximumf (F := Ideal) (φ := .f32)) x (constant (F := Ideal) S_ .f32 0xFF800000#32)
        reducesTo_S2x2048x32000_S2x2048_d2 h_S_ (ix2 b s)
      = foldMax fun k => x (ix3 b s k) := by
  have h : S2x2048x32000.Reduces [2] S2x2048 := by decide
  rw [Host.reduce_eq_fold_single FloatOps.maximumf x _ reducesTo_S2x2048x32000_S2x2048_d2 h h_S_]
  have hf : (x ∘ h.lift (ix2 b s)) = fun k : Fin 32000 => x (ix3 b s k) :=
    funext fun k => congrArg x (by funext c; apply Fin.ext; fin_cases c <;> rfl)
  exact congrArg (fun f => Finset.fold max (Ideal.ofBits .f32 0xFF800000#32) f (Finset.univ : Finset (Fin 32000))) hf

theorem v0_row (x1 : FVec Ideal S2x2048x32000 .f32) (b : Fin 2) (s : Fin 2048) :
    val_main_v0 (F := Ideal) x1 (ix2 b s) = foldMax fun k => x1 (ix3 b s k) := hostRowMax x1 b s
theorem c0_row (x0 : FVec Ideal S2x2048x32000 .f32) (b : Fin 2) (s : Fin 2048) :
    val_main_call0_v0 (F := Ideal) x0 (ix2 b s) = foldMax fun k => x0 (ix3 b s k) := hostRowMax x0 b s

/-! ## The row, stage by stage -/

/-- Row (b, s) of an array as a function of the vocabulary position. -/
abbrev R (x : FVec Ideal S2x2048x32000 .f32) (b : Fin 2) (s : Fin 2048) : Fin 32000 → EReal := fun k => x (ix3 b s k)
/-- The row's maximum, as the reference takes it. -/
abbrev mx (x : FVec Ideal S2x2048x32000 .f32) (b : Fin 2) (s : Fin 2048) : EReal := max negInf (foldMax (R x b s))
/-- The row's sum of exponentials of the differences to its maximum. -/
abbrev sm (x : FVec Ideal S2x2048x32000 .f32) (b : Fin 2) (s : Fin 2048) : EReal :=
  zero + ∑ k, Ideal.exp (R x b s k - mx x b s)

variable (x0 x1 : FVec Ideal S2x2048x32000 .f32) (b : Fin 2) (s : Fin 2048)

/-! ### The teacher's softmax -/

theorem v2_row : val_main_v2 (F := Ideal) x1 (ix2 b s) = mx x1 b s := by
  rw [val_main_v2_apply, val_main_v1_apply, val_main_cst_0_apply, v0_row]
  rfl

theorem v6_row (k : Fin 32000) : val_main_v6 (F := Ideal) x1 (ix3 b s k) = Ideal.exp (R x1 b s k - mx x1 b s) := by
  rw [val_main_v6_apply, val_main_v5_apply, val_main_v4_apply, idx_v4, val_main_v3_apply, idx_v3, v2_row]
  rfl

theorem v7_row : val_main_v7 (F := Ideal) x1 (ix2 b s) = sm x1 b s := by
  rw [val_main_v7_apply, val_main_cst_1_apply]
  refine congrArg (_ + ·) (Finset.sum_congr rfl fun k _ => ?_)
  rw [idx_v7, v6_row]

theorem v10_row (k : Fin 32000) :
    val_main_v10 (F := Ideal) x1 (ix3 b s k) = Ideal.div (Ideal.exp (R x1 b s k - mx x1 b s)) (sm x1 b s) := by
  rw [val_main_v10_apply, v6_row, val_main_v9_apply, idx_v9, val_main_v8_apply, idx_v8, v7_row]
  rfl

/-! ### The student's log-softmax -/

theorem c2_row : val_main_call0_v2 (F := Ideal) x0 (ix2 b s) = mx x0 b s := by
  rw [val_main_call0_v2_apply, val_main_call0_v1_apply, val_main_call0_cst_0_apply, c0_row]
  rfl

theorem c5_row (k : Fin 32000) : val_main_call0_v5 (F := Ideal) x0 (ix3 b s k) = R x0 b s k - mx x0 b s := by
  rw [val_main_call0_v5_apply, val_main_call0_v4_apply, idx_c4, val_main_call0_v3_apply, idx_c3, c2_row]
  rfl

theorem c7_row : val_main_call0_v7 (F := Ideal) x0 (ix2 b s) = sm x0 b s := by
  rw [val_main_call0_v7_apply, val_main_call0_cst_1_apply]
  refine congrArg (_ + ·) (Finset.sum_congr rfl fun k _ => ?_)
  rw [idx_c7, val_main_call0_v6_apply, c5_row]
  rfl

theorem v11_row (k : Fin 32000) :
    val_main_v11 (F := Ideal) x0 (ix3 b s k) = (R x0 b s k - mx x0 b s) - Ideal.log (sm x0 b s) := by
  rw [val_main_v11_apply, c5_row, val_main_call0_v10_apply, idx_c10, val_main_call0_v9_apply, val_main_call0_v8_apply, idx_c8,
    c7_row]
  simp only [Ideal.subf_def, Ideal.hostUnary_log_def]

/-! ### The masked product and its row sum -/

theorem v14_row (k : Fin 32000) :
    val_main_v14 (F := Ideal) x0 x1 (ix3 b s k)
      = masked (R x0 b s k)
          (Ideal.div (Ideal.exp (R x1 b s k - mx x1 b s)) (sm x1 b s) * ((R x0 b s k - mx x0 b s) - Ideal.log (sm x0 b s))) := by
  rw [val_main_v14_apply, val_main_v12_apply, val_main_call1_v0_apply, val_main_call1_v1_apply, val_main_call1_cst_apply,
    val_main_call2_v1_apply, val_main_call2_v0_apply, val_main_cst_2_apply, val_main_v13_apply, v10_row, v11_row]
  rfl

/-- The reference's row sum at (b, s) is its row formula of row (b, s) of the logits `x0` and of the teacher's `x1`. -/
theorem ref_row : val_main_v15 (F := Ideal) x0 x1 (ix2 b s) = refRow (R x0 b s) (R x1 b s) := by
  rw [val_main_v15_apply, val_main_cst_3_apply]
  refine congrArg (_ + ·) (Finset.sum_congr rfl fun k _ => ?_)
  rw [idx_v15, v14_row]

/-- The reference's flattened row sums at flat row `i`. -/
theorem ref_rows (i : Fin 4096) :
    val_main_v16 (F := Ideal) x0 x1 (ix1 i) = refRow (rowOf x0 i) (rowOf x1 i) := by
  rw [val_main_v16_apply]
  have e : idx_main_v16 (ix1 i) = ix2 (rowB i) (rowS i) := by
    funext a; match a with | ⟨0, _⟩ => rfl | ⟨1, _⟩ => rfl
  rw [e]
  exact ref_row x0 x1 (rowB i) (rowS i)

end Cert.KD.Ref

end
-- ==== Proof.RowLaw.lean ====
/-
  The kernel's row formula equals the reference's on rows of real numbers.

  Three facts carry it. (1) A maximum or a sum taken in ten pieces of 3200 consecutive positions and accumulated
  from the left is the maximum or the sum over all 32000 positions, because every position is position `j` of
  piece `c` for exactly one pair `(c, j)`. (2) On a row of reals no logit is infinite, so the mask is the
  identity, the two maxima are reals, every exponential is a positive real and so are the two sums of
  exponentials. (3) Over the reals, with `T = ∑ E`,
  `((∑ E·S) − Λ·(∑ E)) · (1/T) = ∑ (E·(1/T))·(S − Λ)` by distributivity.
  Finiteness matters: distributivity fails at the infinities of the extended reals.
-/
import proofs.«116429_j867583393854_2_alg».proof.Proof.RowSpec
import Mathlib.Data.Finset.Fold
import Mathlib.Algebra.BigOperators.Fin
import Mathlib.Algebra.BigOperators.Ring.Finset
import Mathlib.Data.Fintype.BigOperators
import Mathlib.Tactic.FinCases
import Mathlib.Tactic.Ring

noncomputable section

namespace Cert.KD

open Idealize.ShloMosaic

/-! ### The three bit patterns -/

theorem negInf_eq_bot : negInf = ⊥ := by simp [negInf, Ideal.ofBits, Ideal.ieee]
theorem posInf_eq_top : posInf = ⊤ := by simp [posInf, Ideal.ofBits, Ideal.ieee]
theorem zero_eq_zero : zero = 0 := by simp [zero, Ideal.ofBits, Ideal.ieee]

/-! ### A real logit is not infinite, so the mask lets its value through -/

theorem isInf_coe (r : ℝ) : isInf (r : EReal) = 0#1 := by
  have hne : max (r : EReal) (-(r : EReal)) ≠ ⊤ := by
    rcases max_choice (r : EReal) (-(r : EReal)) with h | h <;> rw [h]
    · exact EReal.coe_ne_top r
    · rw [← EReal.coe_neg]; exact EReal.coe_ne_top _
  simp [isInf, Ideal.cmp, posInf_eq_top, hne]

theorem masked_coe (r : ℝ) (v : EReal) : masked (r : EReal) v = v := by
  simp [masked, isInf_coe, Scalar.select]

/-! ### Every position is position `j` of piece `c` for exactly one pair `(c, j)` -/

/-- The 32000 positions as pairs (piece, position within the piece). -/
def colEquiv : Fin 10 × Fin 3200 ≃ Fin 32000 where
  toFun p := col p.1 p.2
  invFun k := (⟨k.val / 3200, by have := k.isLt; omega⟩, ⟨k.val % 3200, by omega⟩)
  left_inv := by
    rintro ⟨c, j⟩
    have hc := c.isLt
    have hj := j.isLt
    refine Prod.ext (Fin.ext ?_) (Fin.ext ?_)
    · show (3200 * c.val + j.val) / 3200 = c.val
      omega
    · show (3200 * c.val + j.val) % 3200 = j.val
      omega
  right_inv := by
    intro k
    refine Fin.ext ?_
    show 3200 * (k.val / 3200) + k.val % 3200 = k.val
    omega

theorem exists_col (k : Fin 32000) : ∃ c j, col c j = k :=
  ⟨(colEquiv.symm k).1, (colEquiv.symm k).2, colEquiv.apply_symm_apply k⟩

/-! ### Ten pieces accumulated from the left -/

/-- Each of the ten values is below their accumulated maximum. -/
theorem le_acc10_max (init : EReal) (p : Fin 10 → EReal) (c : Fin 10) : p c ≤ acc10 max init p := by
  fin_cases c <;> simp [acc10]

/-- The accumulated maximum is below any bound of the start and of the ten values. -/
theorem acc10_max_le {init a : EReal} {p : Fin 10 → EReal} (h0 : init ≤ a) (h : ∀ c, p c ≤ a) :
    acc10 max init p ≤ a := by
  unfold acc10
  repeat' apply max_le
  all_goals first | exact h0 | exact h _

/-- The maximum over the ten pieces of the pieces' maxima is the maximum over all positions. -/
theorem acc10_max_pieces (f : Fin 32000 → EReal) :
    acc10 max negInf (fun c => foldMax fun j => f (col c j)) = max negInf (foldMax f) := by
  apply le_antisymm
  · apply acc10_max_le (le_max_left _ _)
    intro c
    refine le_trans ?_ (le_max_right _ _)
    unfold foldMax
    rw [Finset.fold_max_le]
    refine ⟨?_, fun j _ => ?_⟩
    · rw [Finset.le_fold_max]; exact Or.inl le_rfl
    · rw [Finset.le_fold_max]; exact Or.inr ⟨col c j, Finset.mem_univ _, le_rfl⟩
  · apply max_le
    · rw [negInf_eq_bot]; exact bot_le
    · unfold foldMax
      rw [Finset.fold_max_le]
      refine ⟨by rw [negInf_eq_bot]; exact bot_le, fun k _ => ?_⟩
      obtain ⟨c, j, rfl⟩ := exists_col k
      refine le_trans ?_ (le_acc10_max _ _ c)
      show f (col c j) ≤ Finset.univ.fold max negInf fun j => f (col c j)
      rw [Finset.le_fold_max]; exact Or.inr ⟨j, Finset.mem_univ _, le_rfl⟩

/-- Ten values added from the left, starting at zero, are their sum. -/
theorem acc10_add (p : Fin 10 → EReal) : acc10 (· + ·) zero p = ∑ c, p c := by
  rw [Fin.sum_univ_castSucc, Fin.sum_univ_castSucc, Fin.sum_univ_eight, zero_eq_zero]
  simp only [acc10, zero_add]
  rfl

/-- The sum over the ten pieces of the pieces' sums is the sum over all positions. -/
theorem acc10_add_pieces (g : Fin 32000 → EReal) :
    acc10 (· + ·) zero (fun c => ∑ j, g (col c j)) = ∑ k, g k := by
  rw [acc10_add]
  calc ∑ c, ∑ j, g (col c j) = ∑ p : Fin 10 × Fin 3200, g (col p.1 p.2) :=
        (Fintype.sum_prod_type' fun c j => g (col c j)).symm
    _ = ∑ k, g k := Fintype.sum_equiv colEquiv _ _ fun _ => rfl

/-! ### Rows of reals -/

/-- The coercion of the reals passes through a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row of reals is a real. -/
theorem foldMax_coe (f : Fin 32000 → ℝ) :
    ∃ m : ℝ, max negInf (foldMax fun k => (f k : EReal)) = (m : EReal) := by
  have hbot : max negInf (foldMax fun k => (f k : EReal)) ≠ ⊥ := by
    have h0 : ((f 0 : ℝ) : EReal) ≤ max negInf (foldMax fun k => (f k : EReal)) := by
      refine le_trans ?_ (le_max_right _ _)
      unfold foldMax
      rw [Finset.le_fold_max]; exact Or.inr ⟨0, Finset.mem_univ _, le_rfl⟩
    intro h
    rw [h] at h0
    exact EReal.coe_ne_bot _ (le_bot_iff.mp h0)
  have htop : max negInf (foldMax fun k => (f k : EReal)) ≠ ⊤ := by
    apply ne_of_lt
    rw [max_lt_iff]
    refine ⟨by rw [negInf_eq_bot]; exact bot_lt_top, ?_⟩
    unfold foldMax
    rw [Finset.fold_max_lt]
    exact ⟨by rw [negInf_eq_bot]; exact bot_lt_top, fun k _ => EReal.coe_lt_top _⟩
  exact ⟨_, (EReal.coe_toReal htop hbot).symm⟩

/-- Over the reals the normalisers `c = 1/T` and `Λ = log L` factor out of the sum. -/
theorem sum_factor (E S : Fin 32000 → ℝ) (Λ c : ℝ) :
    ((∑ k, E k * S k) - Λ * ∑ k, E k) * c = ∑ k, E k * c * (S k - Λ) := by
  rw [Finset.mul_sum, ← Finset.sum_sub_distrib, Finset.sum_mul]
  exact Finset.sum_congr rfl fun k _ => by ring

/-- A sum of exponentials over the positions is positive. -/
theorem sum_exp_pos (f : Fin 32000 → ℝ) : 0 < ∑ k, Real.exp (f k) :=
  Finset.sum_pos (fun k _ => Real.exp_pos _) ⟨0, Finset.mem_univ _⟩

/-- The identity on rows given as real-valued functions. -/
theorem kerRow_coe (lr tr : Fin 32000 → ℝ) :
    kerRow (fun k => (lr k : EReal)) (fun k => (tr k : EReal))
      = refRow (fun k => (lr k : EReal)) (fun k => (tr k : EReal)) := by
  obtain ⟨mt, hmt⟩ := foldMax_coe tr
  obtain ⟨ml, hml⟩ := foldMax_coe lr
  have hmt' := (acc10_max_pieces fun k => (tr k : EReal)).trans hmt
  have hml' := (acc10_max_pieces fun k => (lr k : EReal)).trans hml
  simp only [kerRow, refRow, hmt, hml, hmt', hml', masked_coe, ← EReal.coe_sub, Ideal.exp_coe]
  rw [acc10_add_pieces (fun k => ((Real.exp (tr k - mt) : ℝ) : EReal) * ((lr k - ml : ℝ) : EReal)),
    acc10_add_pieces (fun k => ((Real.exp (lr k - ml) : ℝ) : EReal)),
    acc10_add_pieces (fun k => ((Real.exp (tr k - mt) : ℝ) : EReal))]
  have hT : 0 < ∑ k, Real.exp (tr k - mt) := sum_exp_pos _
  have hL : 0 < ∑ k, Real.exp (lr k - ml) := sum_exp_pos _
  simp only [zero_eq_zero, zero_add, ← EReal.coe_mul, ← coe_sum]
  rw [Ideal.log_coe, if_neg (not_le.mpr hL)]
  simp only [Ideal.div_coe hT.ne', ← EReal.coe_mul, ← EReal.coe_sub, ← coe_sum]
  exact congrArg _ (sum_factor (fun i => Real.exp (tr i - mt)) (fun i => lr i - ml) _ _)

/-- On rows of reals the kernel's row formula is the reference's. -/
theorem kerRow_eq_refRow (l t : Fin 32000 → EReal)
    (hl : ∀ k, ∃ r : ℝ, l k = (r : EReal)) (ht : ∀ k, ∃ r : ℝ, t k = (r : EReal)) :
    kerRow l t = refRow l t := by
  choose lr hlr using hl
  choose tr htr using ht
  obtain rfl : l = fun k => (lr k : EReal) := funext hlr
  obtain rfl : t = fun k => (tr k : EReal) := funext htr
  exact kerRow_coe lr tr

end Cert.KD

end
-- ==== Proof.FiniteInputs.lean ====
import proofs.«116429_j867583393854_2_alg».proof.Pre_finite_inputs
import Idealize.ShloMosaic.PureOps.Ideal.Laws
import Idealize.ShloMosaic.Lib.ReduceAll
import Idealize.ShloMosaic.Lib.ValueIdx
import Idealize.ShloMosaic.Lib.Pipeline.Value

/-!
  The precondition "every float input is finite", read back at the extended reals.

  The printed predicate computes, for each of the two float arrays, the conjunction over all entries of
  `|x| < +∞`, and the claim says the conjunction of the two results is 1. Over the extended reals
  `|x| = max x (-x)`, and `max x (-x) < ⊤` fails at `⊥` and at `⊤`; so every entry is a real number.
-/

open Idealize.ShloMosaic

namespace Cert.KD.Finite

open Cert.Pre_finite_inputs

/-- The scalar shape has one index. -/
instance : Subsingleton S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An ordered "less than" that came out 1 says the left side is below the right. -/
theorem lt_of_cmp_olt (a b : EReal) (h : Ideal.cmp .olt a b = 1#1) : a < b := by
  have h' : BitVec.ofBool (decide (a < b)) = 1#1 := h
  by_contra hn
  rw [decide_eq_false hn] at h'
  exact absurd h' (by decide)

/-- An extended real whose absolute value `max x (-x)` is below `+∞` is a real: at `⊥` and at `⊤` the
    absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One input's half of the predicate: if the conjunction over all entries of `|x| < +∞` is 1, every entry of `x`
    is a real. -/
theorem real_of_all [Facts] (x : FVec Ideal S2x2048x32000 .f32) (init : IVec S_ 1) (j : S_.Idx)
    (h : Host.reduce IntOp.andi
        (cmpf .olt (Host.absf x)
          (broadcastInDim S2x2048x32000 ![] Facts.bcast_S_S2x2048x32000 (constant S_ .f32 0x7F800000#32)))
        init Facts.reducesTo_S2x2048x32000_S_d0_1_2 Facts.h_S_ j = 1#1) :
    ∀ i, ∃ r : ℝ, x i = (r : EReal) := by
  intro i
  -- the entry of the compared array at `i` is 1
  have e := Host.reduce_andi_all _ _ _ _ j h i
  -- that entry is the comparison of `max (x i) (-(x i))` with the broadcast constant, which is `+∞`
  have e' : Ideal.cmp .olt (max (x i) (-(x i))) (Ideal.ofBits .f32 0x7F800000#32) = 1#1 := e
  rw [ofBits_inf] at e'
  exact real_of_abs_lt_top (x i) (lt_of_cmp_olt _ _ e')

/-- The precondition at the extended reals: every entry of both float inputs is a real number. -/
theorem real_of_pre [Cert.Pre_finite_inputs.Facts]
    (x0 x1 : FVec Ideal Cert.Pre_finite_inputs.S2x2048x32000 .f32) (x2 : IVec Cert.Pre_finite_inputs.S2x2048 32)
    (h : Cert.Pre_finite_inputs.fn (F := Ideal) x0 x1 x2 = fun _ => 1#1) :
    (∀ i, ∃ r : ℝ, x0 i = (r : EReal)) ∧ (∀ i, ∃ r : ℝ, x1 i = (r : EReal)) := by
  -- the claim at the one index of the scalar result
  have h0 := congrFun h ValueIdx.ix0
  dsimp only [Cert.Pre_finite_inputs.fn] at h0
  -- a conjunction that is 1 has both sides 1
  obtain ⟨ha, hb⟩ := IntOp.andi_eq_one.1 h0
  exact ⟨real_of_all x0 _ _ ha, real_of_all x1 _ _ hb⟩

end Cert.KD.Finite
-- ==== Proof.Bridge.lean ====
/-
  The two programs' results are one number.

  Both programs end with the same last step on two vectors of 4096 entries: the rows' cross terms and the labels' mask.
  The masks are equal entry by entry (the kernel's program flattens the labels and then compares them with -100, the
  reference compares and then flattens). The rows' cross terms are equal entry by entry under the precondition: row
  `i` of the kernel's output is the kernel's row formula of row `i` of the two arguments, row `i` of the reference's
  is the reference's row formula of the same two rows, and on rows of real numbers — which is what "every float input
  is finite" says of them — the two formulas agree.
-/
import proofs.«116429_j867583393854_2_alg».proof.Defs
import proofs.«116429_j867583393854_2_alg».proof.Proof.KerArray
import proofs.«116429_j867583393854_2_alg».proof.Proof.RefRows
import proofs.«116429_j867583393854_2_alg».proof.Proof.RowLaw
import proofs.«116429_j867583393854_2_alg».proof.Proof.FiniteInputs
import proofs.«116429_j867583393854_2_alg».proof.Proof.Gen.Pre_finite_inputs

set_option maxRecDepth 16384

noncomputable section

namespace Cert.KD.Bridge

open Idealize.ShloMosaic Idealize.ShloMosaic.TcCoe Idealize.ShloMosaic.ValueIdx Idealize.SL.Sem
open Cert.KD

section
open Cert.KernelIdeal Cert.KernelIdeal.Gen

variable (m : (ℓ : Loc nD τ sig) → Buf (Elt Ideal) ℓ)

/-- Row `i` of the kernel's flattened output column is the kernel's row formula of row `i` of the two arguments. -/
theorem ker_rows_apply (c : Dev nD) (i : Fin 4096) :
    shapeCast S4096 (Arr.rows (V m c main_v0) (V m c main_v1)) shapeCasts_S4096x1_S4096 (ix1 i)
      = kerRow (rowOf (m ((c.tc : Thread nD τ).loc main_arg0)) i) (rowOf (m ((c.tc : Thread nD τ).loc main_arg1)) i) := by
  rw [shapeCast_apply _ shapeCasts_S4096x1_S4096 (ix1 i) (ix2 i (0 : Fin 1)) (by
    rw [Shape.rowMajor_val_two, Shape.rowMajor_val_one]
    show i.val * 1 + 0 = i.val
    omega)]
  show kerRow (fun k => V m c main_v0 (ix2 i k)) (fun k => V m c main_v1 (ix2 i k)) = _
  rw [Arr.V_v0, Arr.V_v1]
  exact congrArg₂ kerRow (funext fun k => Arr.flat_apply _ i k) (funext fun k => Arr.flat_apply _ i k)

end

/-- The reference's mask of the labels is the kernel program's. -/
theorem mask_eq (x2 : IVec Cert.KernelIdeal.S2x2048 32) :
    Cert.ReferenceIdeal.ReadP.val_main_v20 (F := Ideal) x2 = Arr.maskK x2 :=
  funext fun _ => rfl

attribute [local irreducible] Host.reduceAdd in
/-- The reference's result is the shared last step on its rows and its mask. -/
theorem ref_tail (x0 x1 : Ref.Arr) (x2 : IVec Cert.ReferenceIdeal.S2x2048 32) :
    Cert.ReferenceIdeal.ReadP.val_main_v25 (F := Ideal) x0 x1 x2
      = lossTail Cert.ReferenceIdeal.Facts₀.reducesTo_S4096_S_d0 Cert.ReferenceIdeal.Facts₀.h_S_
          (Cert.ReferenceIdeal.ReadP.val_main_v16 (F := Ideal) x0 x1) (Cert.ReferenceIdeal.ReadP.val_main_v20 (F := Ideal) x2) :=
  rfl

section
open Cert.KernelIdeal Cert.KernelIdeal.Gen

/-- Under the precondition the reference's result, read at the kernel program's arguments, is the kernel program's. -/
theorem result_eq (m : (ℓ : Loc nD τ sig) → Buf (Elt Ideal) ℓ) (c : Dev nD)
    (hpre : Cert.Pre_finite_inputs.fn (F := Ideal) (m ((c.tc : Thread nD τ).loc main_arg0))
      (m ((c.tc : Thread nD τ).loc main_arg1)) (m ((c.tc : Thread nD τ).loc main_arg2)) = fun _ => 1#1) :
    Cert.ReferenceIdeal.ReadP.val_main_v25 (F := Ideal) (m ((c.tc : Thread nD τ).loc main_arg0))
        (m ((c.tc : Thread nD τ).loc main_arg1)) (m ((c.tc : Thread nD τ).loc main_arg2))
      = Arr.result m c := by
  obtain ⟨h0, h1⟩ := Cert.KD.Finite.real_of_pre _ _ _ hpre
  have eX : Cert.ReferenceIdeal.ReadP.val_main_v16 (F := Ideal) (m ((c.tc : Thread nD τ).loc main_arg0)) (m ((c.tc : Thread nD τ).loc main_arg1))
      = shapeCast S4096 (Arr.rows (V m c main_v0) (V m c main_v1)) shapeCasts_S4096x1_S4096 := by
    funext j
    obtain ⟨i, rfl⟩ : ∃ i : Fin 4096, j = ix1 i := ⟨j 0, eq_ix1 j⟩
    rw [Ref.ref_rows, ker_rows_apply]
    exact (kerRow_eq_refRow _ _ (fun k => h0 (ix3 (rowB i) (rowS i) k)) (fun k => h1 (ix3 (rowB i) (rowS i) k))).symm
  rw [ref_tail, eX, mask_eq]
  rfl

end

end Cert.KD.Bridge

end
-- ==== Proof.lean ====
/-
  The certificate's five claims for the distillation-loss kernel.

  The kernel computes, for each of the 4096 rows of logits, the cross term of the teacher's softmax with the student's
  log-softmax, taking every row maximum and row sum in ten pieces of 3200 vocabulary positions and applying the two
  normalisers (the division by the teacher's sum of exponentials and the subtraction of the logarithm of the student's)
  once per row, after the sums; the reference applies them position by position. On finite inputs every quantity is a
  real number, the masks of infinite logits are open, and distributivity makes the two row values equal; both programs
  then feed the rows and the labels' mask to the same last step. The three frames are the generated frame runs (the
  reference's is its run with the result dropped); no operation was rewritten by the idealization, so there is nothing
  to preserve.
-/
import proofs.«116429_j867583393854_2_alg».proof.Defs
import proofs.«116429_j867583393854_2_alg».proof.Proof.Gen.Kernel
import proofs.«116429_j867583393854_2_alg».proof.Proof.Gen.Kernel.Skeleton
import proofs.«116429_j867583393854_2_alg».proof.Proof.Gen.Kernel.Launch
import proofs.«116429_j867583393854_2_alg».proof.Proof.Gen.Kernel.Points
import proofs.«116429_j867583393854_2_alg».proof.Proof.Gen.Kernel.Frame
import proofs.«116429_j867583393854_2_alg».proof.Proof.Gen.KernelIdeal
import proofs.«116429_j867583393854_2_alg».proof.Proof.Gen.KernelIdeal.Skeleton
import proofs.«116429_j867583393854_2_alg».proof.Proof.Gen.KernelIdeal.Launch
import proofs.«116429_j867583393854_2_alg».proof.Proof.Gen.KernelIdeal.Points
import proofs.«116429_j867583393854_2_alg».proof.Proof.Gen.KernelIdeal.Frame
import proofs.«116429_j867583393854_2_alg».proof.Proof.Gen.ReferenceIdeal
import proofs.«116429_j867583393854_2_alg».proof.Proof.Gen.Pre_finite_inputs
import proofs.«116429_j867583393854_2_alg».proof.Proof.RefRun
import proofs.«116429_j867583393854_2_alg».proof.Proof.RefRead
import proofs.«116429_j867583393854_2_alg».proof.Proof.KerArray
import proofs.«116429_j867583393854_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories agreeing on the arguments, the kernel's program ends at the shared last step of its rows and its
    mask, the reference at its composed term, which under the precondition is the same number. -/
theorem algebraic : Cert.algebraic_KernelIdeal_ReferenceIdeal := by
  intro m ρ m' ρ' hpre hagree
  refine ⟨fun c => Cert.KD.Arr.result m c, Cert.KD.Arr.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2]
  exact (Cert.ReferenceIdeal.ReadP.val_main_v25_eq _ _ _).trans (Cert.KD.Bridge.result_eq m c (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
